-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S1024x1024 .f32) (main_arg1 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S1024x1024 : Shape := ⟨2, ![1024, 1024]⟩
abbrev S8192x1024 : Shape := ⟨2, ![8192, 1024]⟩
abbrev S8192x1 : Shape := ⟨2, ![8192, 1]⟩
abbrev S256x1024 : Shape := ⟨2, ![256, 1024]⟩
abbrev S256x1 : Shape := ⟨2, ![256, 1]⟩
abbrev S256 : Shape := ⟨1, ![256]⟩
abbrev S1024 : Shape := ⟨1, ![1024]⟩
abbrev S1024x1 : Shape := ⟨2, ![1024, 1]⟩
abbrev S1x1024 : Shape := ⟨2, ![1, 1024]⟩
abbrev S8192 : Shape := ⟨1, ![8192]⟩

abbrev nBuf : Space → Nat
  | .hbm => 7
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .f32⟩
  | .hbm, ⟨3, _⟩ => ⟨S8192x1, .f32⟩
  | .hbm, ⟨4, _⟩ => ⟨S8192x1, .f32⟩
  | .hbm, ⟨5, _⟩ => ⟨S8192, .f32⟩
  | .hbm, ⟨6, _⟩ => ⟨S8192, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  transposes_S1024x1024_p1_0_S1024x1024 : S1024x1024.Transposes [1, 0] S1024x1024
  reduces_S256x1024_S256 : S256x1024.Reduces [1] S256
  shapeCasts_S256_S256x1 : S256.ShapeCasts S256x1
  reduces_S1024x1024_S1024 : S1024x1024.Reduces [1] S1024
  shapeCasts_S1024_S1024x1 : S1024.ShapeCasts S1024x1
  transposes_S1024x1_p1_0_S1x1024 : S1024x1.Transposes [1, 0] S1x1024
  broadcasts_S256x1_S256x1024 : S256x1.Broadcasts S256x1024
  broadcasts_S1x1024_S256x1024 : S1x1024.Broadcasts S256x1024
  inb_S256x1_S256x1_0_0 : ∀ a, (![0, 0] : Fin 2 → Nat) a + S256x1.size a ≤ S256x1.size a
  h_S256x1 : 0 < S256x1.numel
  shapeCasts_S8192x1_S8192 : S8192x1.ShapeCasts S8192
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S1024 : Shape := ⟨1, ![1024]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  reducesTo_S1024x1024_S1024_d1 : S1024x1024.ReducesTo [1] S1024
  transposes_S1024x1024_S1024x1024_1_0 : S1024x1024.Transposes [1, 0] S1024x1024
  bcast_S8192_S8192x1_0 : S8192.BroadcastsInDim S8192x1 (![0] : Fin 1 → Fin S8192x1.rank)
  bcast_S1024_S1x1024_1 : S1024.BroadcastsInDim S1x1024 (![1] : Fin 1 → Fin S1x1024.rank)
  bcast_S8192x1_S8192x1024_0_1 : S8192x1.BroadcastsInDim S8192x1024 (![0, 1] : Fin 2 → Fin S8192x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The mathematics both programs compute, stated once over the extended reals and over no program.

  For a table of prototypes `P` (1024 rows of 1024 features) and ONE query row `q` (1024 features):
    * `sqDist P q k`  — the squared distance `‖q - P_k + ε‖²` in its expanded form
        `(‖q‖² + ‖P_k‖²) - 2·⟨q, P_k⟩ + 2ε·(Σq - ΣP_k) + D·ε²`, the three constants kept as the f32 words both programs print;
    * `weight P q k`  — `exp(-√(max(sqDist, 0)))`;
    * `post P q k`    — the weight over the row's total weight (the class posterior);
    * `conf P q`      — the largest posterior of the row, as the fold of `max` from `-∞` over the classes;
    * `entropy P q`   — `-Σ_k post·log post`.
  Each result array of either program holds, at query row `r`, these functions of row `r` of the query array:
  `postArr`, `confArr`, `entArr`.
-/
import Idealize.ShloMosaic.PureOps.Ideal
import Idealize.ShloMosaic.Lib.ValueIdx

noncomputable section

namespace Cert.Posterior

open Idealize.ShloMosaic Idealize.ShloMosaic.ValueIdx
open scoped BigOperators

/-- The prototype table: 1024 classes by 1024 features. -/
abbrev Protos : Type := FVec Ideal ⟨2, ![1024, 1024]⟩ .f32
/-- The query array: 8192 queries by 1024 features. -/
abbrev Queries : Type := FVec Ideal ⟨2, ![8192, 1024]⟩ .f32

/-- The expanded squared distance of the query row `q` to prototype `k`. -/
def sqDist (P : Protos) (q : Fin 1024 → EReal) (k : Fin 1024) : EReal :=
  ((((∑ d : Fin 1024, q d * q d) + (∑ d : Fin 1024, P (ix2 k d) * P (ix2 k d)))
      - Ideal.ofBits .f32 0x40000000#32 * (∑ d : Fin 1024, q d * P (ix2 k d)))
    + Ideal.ofBits .f32 0x360637BD#32 * ((∑ d : Fin 1024, q d) - (∑ d : Fin 1024, P (ix2 k d))))
    + Ideal.ofBits .f32 0x308CBCCC#32

/-- The unnormalised posterior weight `exp(-dist)`, the distance the root of the clamped squared distance. -/
def weight (P : Protos) (q : Fin 1024 → EReal) (k : Fin 1024) : EReal :=
  Ideal.exp (-(Ideal.sqrt (max (sqDist P q k) 0)))

/-- The posterior of class `k`: its weight over the row's total weight. -/
def post (P : Protos) (q : Fin 1024 → EReal) (k : Fin 1024) : EReal :=
  Ideal.div (weight P q k) (∑ k' : Fin 1024, weight P q k')

/-- The row's confidence: the largest posterior, folded from `-∞`. -/
def conf (P : Protos) (q : Fin 1024 → EReal) : EReal :=
  (Finset.univ : Finset (Fin 1024)).fold max (Ideal.ofBits .f32 0xFF800000#32) (fun k => post P q k)

/-- The row's entropy `-Σ post·log post`. -/
def entropy (P : Protos) (q : Fin 1024 → EReal) : EReal :=
  -(∑ k : Fin 1024, post P q k * Ideal.log (post P q k))

/-- Row `r` of the query array. -/
def row (Q : Queries) (r : Fin 8192) : Fin 1024 → EReal := fun d => Q (ix2 r d)

/-- The posterior array: at (r, k) the posterior of class `k` for query row `r`. -/
def postArr (P : Protos) (Q : Queries) : FVec Ideal ⟨2, ![8192, 1024]⟩ .f32 :=
  fun i => post P (row Q ⟨(i 0).val, (i 0).isLt⟩) ⟨(i 1).val, (i 1).isLt⟩
/-- The confidence array: at r the confidence of query row `r`. -/
def confArr (P : Protos) (Q : Queries) : FVec Ideal ⟨1, ![8192]⟩ .f32 :=
  fun i => conf P (row Q ⟨(i 0).val, (i 0).isLt⟩)
/-- The entropy array: at r the entropy of query row `r`. -/
def entArr (P : Protos) (Q : Queries) : FVec Ideal ⟨1, ![8192]⟩ .f32 :=
  fun i => entropy P (row Q ⟨(i 0).val, (i 0).isLt⟩)

theorem postArr_ix2 (P : Protos) (Q : Queries) (r : Fin 8192) (k : Fin 1024) :
    postArr P Q (ix2 r k) = post P (row Q r) k := rfl
theorem confArr_ix1 (P : Protos) (Q : Queries) (r : Fin 8192) : confArr P Q (ix1 r) = conf P (row Q r) := rfl
theorem entArr_ix1 (P : Protos) (Q : Queries) (r : Fin 8192) : entArr P Q (ix1 r) = entropy P (row Q r) := rfl

/-- The functions of a row depend on the row only through its entries. -/
theorem post_congr (P : Protos) {q q' : Fin 1024 → EReal} (h : ∀ d, q d = q' d) (k : Fin 1024) : post P q k = post P q' k := by
  rw [show q = q' from funext h]
theorem conf_congr (P : Protos) {q q' : Fin 1024 → EReal} (h : ∀ d, q d = q' d) : conf P q = conf P q' := by
  rw [show q = q' from funext h]
theorem entropy_congr (P : Protos) {q q' : Fin 1024 → EReal} (h : ∀ d, q d = q' d) : entropy P q = entropy P q' := by
  rw [show q = q' from funext h]

end Cert.Posterior

end
-- ==== Proof.RefSpec.lean ====
/-
  The reference program's three results are the specification's arrays.

  Read index by index, the reference computes for query row `r` and class `k`: the four row sums (Σ q², Σ P_k², Σ q,
  Σ P_k) and the inner product Σ_d q_d·P_kd; from them the expanded squared distance; its clamped root's negated
  exponential, the weight; the weight over the row's total weight, the posterior. The entropy is the negated row sum
  of posterior times its logarithm, and the confidence is the row's fold of `max` from `-∞` over the posteriors.
  Each step is the specification's definition at row `r` of the query array.
-/
import proofs.«104963_j38130719653972_1_alg».proof.Proof.Gen.ReferenceIdeal.Read
import proofs.«104963_j38130719653972_1_alg».proof.Proof.Spec
noncomputable section
namespace Cert.RefSpec
open Cert.ReferenceIdeal Cert.ReferenceIdeal.Read Cert.Posterior Idealize.ShloMosaic Idealize.ShloMosaic.ValueIdx
open Cert.ReferenceIdeal.Gen
open scoped BigOperators

/-! ## The four row sums -/

/-- The sum of squares of query row `r`. -/
theorem qsq_apply (x1 : Queries) (r : Fin 8192) :
    val_main_v1 (F := Ideal) x1 (ix1 r) = ∑ d : Fin 1024, x1 (ix2 r d) * x1 (ix2 r d) := by
  rw [val_main_v1_apply, val_main_cst_apply, Ideal.ofBits_def, Ideal.ofBits_zero_f32, zero_add]
  refine Finset.sum_congr rfl fun d _ => ?_
  have e : idx_main_v1 (ix1 r) d = ix2 r d := funext fun a => by match a with | ⟨0, _⟩ => rfl | ⟨1, _⟩ => rfl
  rw [val_main_v0_apply, Ideal.mulf_def, e]

/-- The sum of squares of prototype row `k`. -/
theorem psq_apply (x0 : Protos) (k : Fin 1024) :
    val_main_v3 (F := Ideal) x0 (ix1 k) = ∑ d : Fin 1024, x0 (ix2 k d) * x0 (ix2 k d) := by
  rw [val_main_v3_apply, val_main_cst_0_apply, Ideal.ofBits_def, Ideal.ofBits_zero_f32, zero_add]
  refine Finset.sum_congr rfl fun d _ => ?_
  have e : idx_main_v3 (ix1 k) d = ix2 k d := funext fun a => by match a with | ⟨0, _⟩ => rfl | ⟨1, _⟩ => rfl
  rw [val_main_v2_apply, Ideal.mulf_def, e]

/-- The sum of query row `r`. -/
theorem qsum_apply (x1 : Queries) (r : Fin 8192) :
    val_main_v6 (F := Ideal) x1 (ix1 r) = ∑ d : Fin 1024, x1 (ix2 r d) := by
  rw [val_main_v6_apply, val_main_cst_1_apply, Ideal.ofBits_def, Ideal.ofBits_zero_f32, zero_add]
  refine Finset.sum_congr rfl fun d _ => ?_
  have e : idx_main_v6 (ix1 r) d = ix2 r d := funext fun a => by match a with | ⟨0, _⟩ => rfl | ⟨1, _⟩ => rfl
  rw [e]

/-- The sum of prototype row `k`. -/
theorem psum_apply (x0 : Protos) (k : Fin 1024) :
    val_main_v8 (F := Ideal) x0 (ix1 k) = ∑ d : Fin 1024, x0 (ix2 k d) := by
  rw [val_main_v8_apply, val_main_cst_2_apply, Ideal.ofBits_def, Ideal.ofBits_zero_f32, zero_add]
  refine Finset.sum_congr rfl fun d _ => ?_
  have e : idx_main_v8 (ix1 k) d = ix2 k d := funext fun a => by match a with | ⟨0, _⟩ => rfl | ⟨1, _⟩ => rfl
  rw [e]

/-! ## The cross term -/

/-- The product of the queries with the transposed prototypes, at (r, k): the inner product of the two rows. -/
theorem cross_apply (x0 : Protos) (x1 : Queries) (r : Fin 8192) (k : Fin 1024) :
    val_main_v5 (F := Ideal) x0 x1 (ix2 r k) = ∑ d : Fin 1024, x1 (ix2 r d) * x0 (ix2 k d) := by
  rw [val_main_v5_apply]
  refine Finset.sum_congr rfl fun d _ => ?_
  have el : lidx_main_v5 (ix2 r k) d = ix2 r d := funext fun a => by match a with | ⟨0, _⟩ => rfl | ⟨1, _⟩ => rfl
  have er : idx_main_v4 (ridx_main_v5 (ix2 r k) d) = ix2 k d :=
    funext fun a => by match a with | ⟨0, _⟩ => rfl | ⟨1, _⟩ => rfl
  rw [val_main_v4_apply, el, er]

/-! ## The row and column vectors spread over the (r, k) grid -/

theorem v17_apply (x1 : Queries) (r : Fin 8192) (k : Fin 1024) :
    val_main_v17 (F := Ideal) x1 (ix2 r k) = val_main_v1 (F := Ideal) x1 (ix1 r) := by
  rw [val_main_v17_apply, val_main_v15_apply]
  exact congrArg _ (funext fun a => by match a with | ⟨0, _⟩ => rfl)

theorem v18_apply (x0 : Protos) (r : Fin 8192) (k : Fin 1024) :
    val_main_v18 (F := Ideal) x0 (ix2 r k) = val_main_v3 (F := Ideal) x0 (ix1 k) := by
  rw [val_main_v18_apply, val_main_v16_apply]
  exact congrArg _ (funext fun a => by match a with | ⟨0, _⟩ => rfl)

theorem v10_apply (x1 : Queries) (r : Fin 8192) (k : Fin 1024) :
    val_main_v10 (F := Ideal) x1 (ix2 r k) = val_main_v6 (F := Ideal) x1 (ix1 r) := by
  rw [val_main_v10_apply, val_main_v7_apply]
  exact congrArg _ (funext fun a => by match a with | ⟨0, _⟩ => rfl)

theorem v11_apply (x0 : Protos) (r : Fin 8192) (k : Fin 1024) :
    val_main_v11 (F := Ideal) x0 (ix2 r k) = val_main_v8 (F := Ideal) x0 (ix1 k) := by
  rw [val_main_v11_apply, val_main_v9_apply]
  exact congrArg _ (funext fun a => by match a with | ⟨0, _⟩ => rfl)

/-! ## The squared distance, the weight, the posterior -/

theorem sqDist_apply (x0 : Protos) (x1 : Queries) (r : Fin 8192) (k : Fin 1024) :
    val_main_v25 (F := Ideal) x0 x1 (ix2 r k) = sqDist x0 (row x1 r) k := by
  rw [val_main_v25_apply, val_main_v23_apply, val_main_v22_apply, val_main_v19_apply, val_main_v21_apply,
    val_main_v14_apply, val_main_v12_apply, val_main_v24_apply, val_main_v20_apply, val_main_v13_apply,
    val_main_cst_5_apply, val_main_cst_4_apply, val_main_cst_3_apply,
    v17_apply, v18_apply, v10_apply, v11_apply, qsq_apply, psq_apply, qsum_apply, psum_apply, cross_apply]
  simp only [Ideal.addf_def, Ideal.subf_def, Ideal.mulf_def, Ideal.ofBits_def]
  rfl

theorem weight_apply (x0 : Protos) (x1 : Queries) (r : Fin 8192) (k : Fin 1024) :
    val_main_v30 (F := Ideal) x0 x1 (ix2 r k) = weight x0 (row x1 r) k := by
  rw [val_main_v30_apply, val_main_v29_apply, val_main_v28_apply, val_main_v27_apply, val_main_v26_apply,
    val_main_cst_6_apply, sqDist_apply]
  simp only [Ideal.hostUnary_exp_def, Ideal.hostNegf_def, Ideal.negf_def, Ideal.hostUnary_sqrt_def,
    Ideal.maximumf_def, Ideal.ofBits_def, Ideal.ofBits_zero_f32]
  rfl

/-- The row's total weight. -/
theorem total_apply (x0 : Protos) (x1 : Queries) (r : Fin 8192) :
    val_main_v31 (F := Ideal) x0 x1 (ix1 r) = ∑ k' : Fin 1024, weight x0 (row x1 r) k' := by
  rw [val_main_v31_apply, val_main_cst_7_apply, Ideal.ofBits_def, Ideal.ofBits_zero_f32, zero_add]
  refine Finset.sum_congr rfl fun k' _ => ?_
  have e : idx_main_v31 (ix1 r) k' = ix2 r k' := funext fun a => by match a with | ⟨0, _⟩ => rfl | ⟨1, _⟩ => rfl
  rw [e, weight_apply]

theorem v33_apply (x0 : Protos) (x1 : Queries) (r : Fin 8192) (k : Fin 1024) :
    val_main_v33 (F := Ideal) x0 x1 (ix2 r k) = val_main_v31 (F := Ideal) x0 x1 (ix1 r) := by
  rw [val_main_v33_apply, val_main_v32_apply]
  exact congrArg _ (funext fun a => by match a with | ⟨0, _⟩ => rfl)

theorem ref_post_apply (x0 : Protos) (x1 : Queries) (r : Fin 8192) (k : Fin 1024) :
    val_main_v34 (F := Ideal) x0 x1 (ix2 r k) = post x0 (row x1 r) k := by
  rw [val_main_v34_apply, v33_apply, total_apply, weight_apply, Ideal.hostDivf_def]
  rfl

theorem ref_post (x0 : Protos) (x1 : Queries) : val_main_v34 (F := Ideal) x0 x1 = postArr x0 x1 := by
  funext i
  obtain ⟨r, k, rfl⟩ : ∃ (r : Fin 8192) (k : Fin 1024), i = ix2 r k := ⟨i 0, i 1, eq_ix2 i⟩
  rw [ref_post_apply, postArr_ix2]

/-- The entropy of row `r`. -/
theorem ref_ent_apply (x0 : Protos) (x1 : Queries) (r : Fin 8192) :
    val_main_v39 (F := Ideal) x0 x1 (ix1 r) = entropy x0 (row x1 r) := by
  rw [val_main_v39_apply, val_main_v38_apply, val_main_cst_9_apply, Ideal.ofBits_def, Ideal.ofBits_zero_f32, zero_add,
    Ideal.hostNegf_def, Ideal.negf_def]
  unfold entropy
  refine congrArg (fun s => -s) (Finset.sum_congr rfl fun k _ => ?_)
  have e : idx_main_v38 (ix1 r) k = ix2 r k := funext fun a => by match a with | ⟨0, _⟩ => rfl | ⟨1, _⟩ => rfl
  rw [e, val_main_v37_apply, val_main_v36_apply, ref_post_apply, Ideal.mulf_def, Ideal.hostUnary_log_def]

theorem ref_ent (x0 : Protos) (x1 : Queries) : val_main_v39 (F := Ideal) x0 x1 = entArr x0 x1 := by
  funext i
  obtain ⟨r, rfl⟩ : ∃ r : Fin 8192, i = ix1 r := ⟨i 0, eq_ix1 i⟩
  rw [ref_ent_apply, entArr_ix1]

/-- A fold does not depend on how its operation is written. -/
theorem fold_op_congr {α β : Type} (op op' : β → β → β) [Std.Commutative op] [Std.Associative op]
    [Std.Commutative op'] [Std.Associative op'] (h : op = op') (b : β) (f : α → β) (s : Finset α) :
    s.fold op b f = s.fold op' b f := by
  subst h; rfl

/-- A row maximum taken from `-∞`, at row `r`: the fold of `max` over the row's entries. -/
theorem rowmax_apply (y : FVec Ideal ⟨2, ![8192, 1024]⟩ .f32) (r : Fin 8192) :
    Host.reduce (FloatOps.maximumf (F := Ideal) (φ := .f32)) y (val_main_cst_8 (F := Ideal))
        reducesTo_S8192x1024_S8192_d1 h_S_ (ix1 r)
      = (Finset.univ : Finset (Fin 1024)).fold max (Ideal.ofBits .f32 0xFF800000#32) (fun k => y (ix2 r k)) := by
  have h : S8192x1024.Reduces [1] S8192 := by decide
  refine (Host.reduce_eq_fold_single (α := Ideal .f32) (FloatOps.maximumf (F := Ideal) (φ := .f32)) y
    (val_main_cst_8 (F := Ideal)) reducesTo_S8192x1024_S8192_d1 h h_S_ (ix1 r)).trans ?_
  rw [val_main_cst_8_apply, Ideal.ofBits_def]
  refine (fold_op_congr _ max (funext fun x => funext fun y => Ideal.maximumf_def x y) _ _ _).trans ?_
  refine Finset.fold_congr fun k _ => ?_
  show y (h.lift (ix1 r) k) = y (ix2 r k)
  exact congrArg y (funext fun a => Fin.ext (by match a with | ⟨0, _⟩ => rfl | ⟨1, _⟩ => rfl))

/-- The confidence of row `r`. -/
theorem ref_conf_apply (x0 : Protos) (x1 : Queries) (r : Fin 8192) :
    val_main_v35 (F := Ideal) x0 x1 (ix1 r) = conf x0 (row x1 r) := by
  unfold val_main_v35
  rw [rowmax_apply]
  unfold conf
  exact Finset.fold_congr fun k _ => ref_post_apply x0 x1 r k

theorem ref_conf (x0 : Protos) (x1 : Queries) : val_main_v35 (F := Ideal) x0 x1 = confArr x0 x1 := by
  funext i
  obtain ⟨r, rfl⟩ : ∃ r : Fin 8192, i = ix1 r := ⟨i 0, eq_ix1 i⟩
  rw [ref_conf_apply, confArr_ix1]
end Cert.RefSpec
end
-- ==== Proof.LibColumn.lean ====
/-
  Column forms of the layout operations, read at an index written by coordinates.

  A row reduction with `keepdims` leaves a column `[a, 1]`: the reduced vector `[a]` is cast to `[a, 1]`, and the
  column is later broadcast along its unit axis to `[a, b]`. Both operations move no data: the cast reads the vector at
  the row's coordinate, the broadcast reads the column at the row's coordinate whatever the lane.
-/
import Idealize.ShloMosaic.Lib.ValueIdx
import Idealize.ShloMosaic.Lib.Pipeline.Value
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibDot.lean ====
/-
  A matrix product of an M×K by a K×N matrix, contracted over the shared axis, read at an entry as a sum over
  Fin K — for any dimension record with the plain product's dimension numbers — together with the lane sum and
  the few keepdims layout moves the kernel bodies and the host code use, each read at explicit coordinates.
-/
import Idealize.ShloMosaic.PureOps.Ideal.Laws
import Idealize.ShloMosaic.Lib.ValueIdx
import Idealize.ShloMosaic.Lib.Pipeline.Value

namespace Cert.LibDot

open Idealize.ShloMosaic Idealize.ShloMosaic.ValueIdx
open scoped BigOperators

variable {M K N : ℕ}

/-- For the plain dimension numbers (contract the left's axis 1 with the right's axis 0, no batch axes) the
    contraction's sum is the sum over the shared extent of left(p, k) · right(k, q). -/
theorem sum_contr_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  set d : DotDims ⟨2, ![M, K]⟩ ⟨2, ![K, N]⟩ ⟨2, ![M, N]⟩ := ⟨[1], [0], [0], [1], [], [], wf⟩ with hd
  have hrk : d.contr.rank = 1 := by rw [d.rank_contr]; rfl
  have hsz : d.contr.size ⟨0, by omega⟩ = K := by
    rw [d.size_contr 0 Nat.one_pos]; rfl
  rw [← Equiv.sum_comp (contrEquiv1 d K hrk hsz).symm]
  refine Finset.sum_congr rfl fun k _ => ?_
  have e1 : d.lhsIdx (ix2 p q) ((contrEquiv1 d K hrk hsz).symm k) = ix2 p k := by
    funext a
    match a with
    | ⟨0, _⟩ =>
      apply Fin.ext
      unfold DotDims.lhsIdx
      rfl
    | ⟨1, _⟩ =>
      apply Fin.ext
      exact (d.lhsIdx_val_of_single (cl := 1) rfl _ _).trans (contrEquiv1_symm_val d K hrk hsz k)
  have e2 : d.rhsIdx (ix2 p q) ((contrEquiv1 d K hrk hsz).symm k) = ix2 k q := by
    funext a
    match a with
    | ⟨0, _⟩ =>
      apply Fin.ext
      exact (d.rhsIdx_val_of_single (cr := 0) rfl _ _).trans (contrEquiv1_symm_val d K hrk hsz k)
    | ⟨1, _⟩ =>
      apply Fin.ext
      unfold DotDims.rhsIdx
      rfl
  rw [e1, e2]

/-- A kernel's matrix product into a zero accumulator, with the plain dimension numbers, at entry (p, q). -/
theorem matmul_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr_plain d hlc hrc hln hrn hlb hrb l r p q)

/-- The host's matrix product with the plain dimension numbers at entry (p, q). -/
theorem dotGeneral_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) :=
  (Ideal.dotGeneral_apply d prec _ l r (ix2 p q)).trans (sum_contr_plain d hlc hrc hln hrn hlb hrb l r p q)

end Cert.LibDot
-- ==== Proof.KernelSpec.lean ====
/-
  The kernel body's three stored values, read at an index, are the specification's row functions.

  For one block of 256 query rows and the whole prototype table, the posterior block at (p, k) is the posterior of
  class k for query row p; the confidence column at row p is the fold of max over the classes of that posterior;
  the entropy column at row p is minus the sum over the classes of posterior times its logarithm. The proof reads
  each non-pointwise operation (lane sums and maxima, the keepdims columns, the transposed prototype rows, the
  broadcasts, the matrix product) at explicit coordinates and pushes the index through the pointwise ones.
-/
import proofs.«104963_j38130719653972_1_alg».proof.Proof.Gen.KernelIdeal.Skeleton
import proofs.«104963_j38130719653972_1_alg».proof.Proof.Spec
import proofs.«104963_j38130719653972_1_alg».proof.Proof.LibColumn
import proofs.«104963_j38130719653972_1_alg».proof.Proof.LibDot
import Idealize.ShloMosaic.Lib.ValueIdx
import Idealize.ShloMosaic.Lib.Pipeline.Value
import Idealize.ShloMosaic.Lib.ValueLayout
import Idealize.ShloMosaic.PureOps.Ideal.Laws
noncomputable section
namespace Cert.KernelSpec
open Cert.KernelIdeal Cert.KernelIdeal.Gen Cert.Posterior Idealize.ShloMosaic Idealize.ShloMosaic.ValueIdx
open scoped BigOperators

/-- A lane sum: the add-reduction of an `[n, 1024]` array over its second axis, from the zero word, read at row `i`,
    is the sum of that row's entries. -/
theorem laneSum {n : ℕ} (v : FVec Ideal ⟨2, ![n, 1024]⟩ .f32)
    (h : (⟨2, ![n, 1024]⟩ : Shape).Reduces [1] ⟨1, ![n]⟩) (hφ : FKind.Formats .f32)
    (hacc : (0x00000000#32 : BitVec 32) = 0x00000000#32) (i : Fin n) :
    multiReduction (F := Ideal) .add [1] ⟨1, ![n]⟩ v 0x00000000#32 h hφ hacc (ix1 i) = ∑ d : Fin 1024, v (ix2 i d) :=
  (Ideal.multiReduction_add_single v _ h hφ hacc (ix1 i)).trans
    (Finset.sum_congr rfl fun d _ => congrArg v (funext fun a => Fin.ext (by match a with | ⟨0,_⟩ => rfl | ⟨1,_⟩ => rfl)))

/-- A lane maximum: the max-reduction of an `[n, 1024]` array over its second axis, from the word of `-∞`, read at
    row `i`, is the fold of `max` over that row's entries. -/
theorem laneMax {n : ℕ} (v : FVec Ideal ⟨2, ![n, 1024]⟩ .f32)
    (h : (⟨2, ![n, 1024]⟩ : Shape).Reduces [1] ⟨1, ![n]⟩) (hφ : FKind.Formats .f32)
    (hacc : (0xFF800000#32 : BitVec 32) = 0xFF800000#32) (i : Fin n) :
    multiReduction (F := Ideal) .maximumf [1] ⟨1, ![n]⟩ v 0xFF800000#32 h hφ hacc (ix1 i)
      = (Finset.univ : Finset (Fin 1024)).fold max (Ideal.ofBits .f32 0xFF800000#32) (fun d => v (ix2 i d)) :=
  (Ideal.multiReduction_maximumf_single v _ h hφ hacc (ix1 i)).trans
    (Finset.fold_congr fun d _ => congrArg v (funext fun a => Fin.ext (by match a with | ⟨0,_⟩ => rfl | ⟨1,_⟩ => rfl)))

/-! ## The pointwise maps at an index -/

theorem sqrt_apply {s : Shape} {φ : FTy} (a : FVec Ideal s φ) (i : s.Idx) :
    Idealize.ShloMosaic.sqrt a i = Ideal.sqrt (a i) := rfl
theorem exp_apply {s : Shape} {φ : FTy} (a : FVec Ideal s φ) (i : s.Idx) :
    Idealize.ShloMosaic.exp a i = Ideal.exp (a i) := rfl
theorem log_apply {s : Shape} {φ : FTy} (a : FVec Ideal s φ) (i : s.Idx) :
    Idealize.ShloMosaic.log a i = Ideal.log (a i) := rfl

/-! ## The kernel's reductions and its matrix product, as printed, at an index -/

/-- The sum over the lanes of a block of 256 rows, at row `p`. -/
theorem rowSum256 (v : FVec Ideal S256x1024 .f32) (p : Fin 256) :
    multiReduction (F := Ideal) .add [1] S256 v 0x00000000#32 reduces_S256x1024_S256 (.inl rfl) rfl (ix1 p)
      = ∑ d : Fin 1024, v (ix2 p d) :=
  laneSum v _ _ _ p

/-- The sum over the features of the prototype table, at prototype `k`. -/
theorem rowSum1024 (v : FVec Ideal S1024x1024 .f32) (k : Fin 1024) :
    multiReduction (F := Ideal) .add [1] S1024 v 0x00000000#32 reduces_S1024x1024_S1024 (.inl rfl) rfl (ix1 k)
      = ∑ d : Fin 1024, v (ix2 k d) :=
  laneSum v _ _ _ k

/-- The maximum over the lanes of a block of 256 rows, at row `p`. -/
theorem rowMax256 (v : FVec Ideal S256x1024 .f32) (p : Fin 256) :
    multiReduction (F := Ideal) .maximumf [1] S256 v 0xFF800000#32 reduces_S256x1024_S256 (.inl rfl) rfl (ix1 p)
      = (Finset.univ : Finset (Fin 1024)).fold max (Ideal.ofBits .f32 0xFF800000#32) (fun d => v (ix2 p d)) :=
  laneMax v _ _ _ p

/-- The matrix product of the query block with the transposed table, into a zero accumulator, at `(p, k)`. -/
theorem cross (l : FVec Ideal S256x1024 .bf16) (r : FVec Ideal S1024x1024 .bf16) (p : Fin 256) (k : Fin 1024) :
    matmul dot_S256x1024_S1024x1024_S256x1024_1_0_0_1_n_n none l r (constant (F := Ideal) S256x1024 .f32 0x00000000#32) (ix2 p k)
      = ∑ d : Fin 1024, l (ix2 p d) * r (ix2 d k) :=
  LibDot.matmul_plain _ rfl rfl rfl rfl rfl rfl none l r p k

/-- The matrix product of the (format-narrowed) query block with the transposed (format-narrowed) table, at `(p, k)`:
    the inner product of query row `p` with prototype `k`. -/
theorem crossT (x0 : Vec Ideal S256x1024 .f32) (x1 : Vec Ideal S1024x1024 .f32) (p : Fin 256) (k : Fin 1024) :
    matmul dot_S256x1024_S1024x1024_S256x1024_1_0_0_1_n_n none (truncf .bf16 x0 bitsLt_bf16_f32)
        (transpose S1024x1024 [1, 0] (truncf .bf16 x1 bitsLt_bf16_f32) transposes_S1024x1024_p1_0_S1024x1024)
        (constant (F := Ideal) S256x1024 .f32 0x00000000#32) (ix2 p k)
      = ∑ d : Fin 1024, x0 (ix2 p d) * x1 (ix2 k d) :=
  (cross _ _ p k).trans (Finset.sum_congr rfl fun d _ => by rw [transpose_ix2_apply]; rfl)

/-- A keepdims row sum of the query block, broadcast along the lanes, at `(p, k)`: the sum of row `p`. -/
theorem rowCol (v : FVec Ideal S256x1024 .f32) (p : Fin 256) (k : Fin 1024) :
    broadcastTo S256x1024
        (shapeCast S256x1 (multiReduction (F := Ideal) .add [1] S256 v 0x00000000#32 reduces_S256x1024_S256 (.inl rfl) rfl)
          shapeCasts_S256_S256x1)
        broadcasts_S256x1_S256x1024 (ix2 p k)
      = ∑ d : Fin 1024, v (ix2 p d) :=
  (LibColumn.broadcastTo_a1_ab_apply _ broadcasts_S256x1_S256x1024 p k).trans
    ((LibColumn.shapeCast_a_a1_apply _ shapeCasts_S256_S256x1 p 0).trans (rowSum256 v p))

/-- A keepdims row sum of the prototype table, turned into a row and broadcast over the query rows, at `(p, k)`:
    the sum of prototype `k`'s row. -/
theorem protoRow (v : FVec Ideal S1024x1024 .f32) (p : Fin 256) (k : Fin 1024) :
    broadcastTo S256x1024
        (transpose S1x1024 [1, 0]
          (shapeCast S1024x1 (multiReduction (F := Ideal) .add [1] S1024 v 0x00000000#32 reduces_S1024x1024_S1024 (.inl rfl) rfl)
            shapeCasts_S1024_S1024x1)
          transposes_S1024x1_p1_0_S1x1024)
        broadcasts_S1x1024_S256x1024 (ix2 p k)
      = ∑ d : Fin 1024, v (ix2 k d) :=
  (broadcastTo_1b_ab_apply _ broadcasts_S1x1024_S256x1024 p k).trans
    ((transpose_ix2_apply _ transposes_S1024x1_p1_0_S1x1024 (0 : Fin 1) k).trans
      ((LibColumn.shapeCast_a_a1_apply _ shapeCasts_S1024_S1024x1 k 0).trans (rowSum1024 v k)))

/-- A posterior from its weights: a row of weights divided by the row's total. -/
theorem post_of_weight (P : Protos) (q : Fin 1024 → EReal) (w : Fin 1024 → EReal) (hw : ∀ k, w k = weight P q k)
    (k : Fin 1024) : Ideal.div (w k) (∑ d : Fin 1024, w d) = post P q k := by
  rw [show w = fun k => weight P q k from funext hw]
  rfl

/-- A block divided by its keepdims row sums, at `(p, k)`. -/
theorem div_rowsum_apply (w : FVec Ideal S256x1024 .f32) (p : Fin 256) (k : Fin 1024) :
    divf w (broadcastTo S256x1024
        (shapeCast S256x1 (multiReduction (F := Ideal) .add [1] S256 w 0x00000000#32 reduces_S256x1024_S256 (.inl rfl) rfl)
          shapeCasts_S256_S256x1)
        broadcasts_S256x1_S256x1024) (ix2 p k)
      = Ideal.div (w (ix2 p k)) (∑ d : Fin 1024, w (ix2 p d)) :=
  congrArg (Ideal.div (w (ix2 p k))) (rowCol w p k)

theorem pay_post (x0 : Vec Ideal S256x1024 .f32) (x1 : Vec Ideal S1024x1024 .f32) (p : Fin 256) (k : Fin 1024) :
    k0_pay3 (F := Ideal) x0 x1 (ix2 p k) = post x1 (fun d => x0 (ix2 p d)) k := by
  unfold k0_pay3
  refine (div_rowsum_apply _ p k).trans ?_
  refine post_of_weight x1 _ _ (fun k' => ?_) k
  simp only [exp_apply, sqrt_apply, subf_apply, addf_apply, mulf_apply, maximumf_apply, broadcast_apply, Ideal.ofBits_def]
  rw [crossT x0 x1 p k', rowCol (mulf x0 x0) p k', rowCol x0 p k', protoRow (mulf x1 x1) p k', protoRow x1 p k']
  simp only [mulf_apply, weight, sqDist, Ideal.ofBits_zero_f32, zero_sub]

theorem pay_conf (x0 : Vec Ideal S256x1024 .f32) (x1 : Vec Ideal S1024x1024 .f32) (p : Fin 256) (u : Fin 1) :
    k0_pay1 (F := Ideal) (k0_pay4 (F := Ideal) x0 x1) (ix2 p u) = conf x1 (fun d => x0 (ix2 p d)) :=
 by
  unfold k0_pay1 k0_pay4
  rw [LibColumn.shapeCast_a_a1_apply _ shapeCasts_S256_S256x1 p u, rowMax256 _ p]
  exact Finset.fold_congr fun k _ => pay_post x0 x1 p k

theorem pay_ent (x0 : Vec Ideal S256x1024 .f32) (x1 : Vec Ideal S1024x1024 .f32) (p : Fin 256) (u : Fin 1) :
    k0_pay2 (F := Ideal) (k0_pay3 (F := Ideal) x0 x1) (ix2 p u) = entropy x1 (fun d => x0 (ix2 p d)) := by
  unfold k0_pay2
  simp only [subf_apply, broadcast_apply, Ideal.ofBits_def]
  rw [LibColumn.shapeCast_a_a1_apply _ shapeCasts_S256_S256x1 p u, rowSum256 _ p]
  simp only [mulf_apply, log_apply, pay_post, Ideal.ofBits_zero_f32, zero_sub, entropy]

end Cert.KernelSpec
end
-- ==== Proof.KernelValue.lean ====
/-
  What the kernel's three result arrays hold after the run.

  The grid has 32 points; point `t` loads rows `256·t … 256·t + 255` of the query array and the whole prototype table,
  and writes back one block of each output: 256 rows of the posterior array, and 256 entries each of the confidence and
  entropy columns. Row `p` of the block is a function of row `256·t + p` of the queries alone, so each block is the
  restriction of ONE whole-array function, and the 32 blocks tile the array: the posterior array ends at `postArr`, the
  two columns `[8192, 1]` at the confidence and the entropy of each row. The two lines after the region reshape the
  columns to vectors `[8192]`, entry `r` of a vector being entry `(r, 0)` of its column.
-/
import proofs.«104963_j38130719653972_1_alg».proof.Proof.Gen.KernelIdeal.Frame
import proofs.«104963_j38130719653972_1_alg».proof.Proof.KernelSpec
import proofs.«104963_j38130719653972_1_alg».proof.Proof.Spec
import proofs.«104963_j38130719653972_1_alg».proof.Proof.LibColumn
import Idealize.ShloMosaic.Lib.Pipeline.Value
import Idealize.ShloMosaic.Lib.StableHlo.Run

set_option maxRecDepth 16384

noncomputable section

namespace Cert.KernelValue

open Cert.KernelIdeal Cert.KernelIdeal.Gen Cert.Posterior Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the query window and the three output windows sit at block row `t`,
    block column 0; the prototype window at block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The prototype window's block is the whole table at every point. -/
theorem protos_blk (c : Dev nD) (t : Fin cfg0.N) : iblk m c 1 t = V m c main_arg0 := by
  obtain ⟨-, -, e2, e3, -⟩ := idx_facts t
  funext y
  show V m c main_arg0 (((cfg0.win 1).blk t).view.emb y) = V m c main_arg0 y
  refine congrArg (V m c main_arg0) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Row `p` of the query window's block at point `t` is row `256·t + p` of the query array. -/
theorem queries_blk (c : Dev nD) (t : Fin cfg0.N) (p : Fin 256) (hr : 256 * t.val + p.val < 8192) (d : Fin 1024) :
    iblk m c 0 t (ix2 p d) = row (V m c main_arg1) ⟨256 * t.val + p.val, hr⟩ d := by
  obtain ⟨e0, e1, -⟩ := idx_facts t
  show V m c main_arg1 (((cfg0.win 0).blk t).view.emb (ix2 p d)) = V m c main_arg1 (ix2 ⟨256 * t.val + p.val, hr⟩ d)
  refine congrArg (V m c main_arg1) (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * d.val = d.val; omega

theorem row_lt (t : Fin cfg0.N) (p : Fin 256) : 256 * t.val + p.val < 8192 := by
  have ht : t.val < 32 := by have := t.isLt; have hN : cfg0.N = 32 := N_0; omega
  have hp := p.isLt
  omega

/-! ## The posterior array (output window 2) -/

/-- What point `t` writes back to the posterior array is block `t` of `postArr` of the two argument arrays. -/
theorem flushed2_eq (c : Dev nD) (t : Fin cfg0.N) :
    (dats m 0 c).flushed 2 t = ((cfg0.win 2).blk t).view.read (Elt Ideal) (postArr (V m c main_arg0) (V m c main_arg1)) := by
  show (cfg0.win 2).cut (grid0.coords t) ((dats m 0 c).after 2 t) = _
  rw [after0_2]
  unfold out0_2
  rw [View.canon_unit_zero hz]
  simp only [View.ld_unit_zero (S := S256x1024) hz, View.ld_unit_zero (S := S1024x1024) hz]
  obtain ⟨-, -, -, -, e4, e5, -⟩ := idx_facts t
  funext j
  obtain ⟨p, k, rfl⟩ : ∃ (p : Fin 256) (k : Fin 1024), j = ix2 p k := ⟨j 0, j 1, eq_ix2 j⟩
  show k0_pay3 (iblk m c 0 t) (iblk m c 1 t) (ix2 p k) = postArr (V m c main_arg0) (V m c main_arg1) (((cfg0.win 2).blk t).view.emb (ix2 p k))
  have he : ((cfg0.win 2).blk t).view.emb (ix2 p k) = ix2 (⟨256 * t.val + p.val, row_lt t p⟩ : Fin 8192) k := by
    funext a; apply Fin.ext
    match a with
    | ⟨0, _⟩ => show win0_2.index t (0 : Fin 2) * 256 + 1 * p.val = 256 * t.val + p.val; omega
    | ⟨1, _⟩ => show win0_2.index t (1 : Fin 2) * 1024 + 1 * k.val = k.val; omega
  rw [he, postArr_ix2]
  refine (Cert.KernelSpec.pay_post (iblk m c 0 t) (iblk m c 1 t) p k).trans ?_
  rw [protos_blk m c t]
  exact post_congr _ (fun d => queries_blk m c t p (row_lt t p) d) k

/-- An index of the posterior array is in point `t`'s block iff each coordinate is in the block's range on its axis. -/
theorem mem_blk2 (t : Fin cfg0.N) (i : S8192x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0_0).slice (win0_2.rect t)).set ↔ _
  rw [View.set_slice_whole, Rect.mem_set_unit]
  exact Iff.rfl

/-- Row `r` lies in the block of point `r / 256`: the 32 blocks tile the array. -/
theorem cover2 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, e4, e5, -⟩ := idx_facts t
  refine ⟨t, flush0_2 t, ?_⟩
  rw [mem_blk2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- The posterior array after the region. -/
theorem final2 (c : Dev nD) : (dats m 0 c).arrAt 2 cfg0.N = postArr (V m c main_arg0) (V m c main_arg1) :=
  (dats m 0 c).arrAt_eq_of_cover 2 (postArr (V m c main_arg0) (V m c main_arg1)) (fun t _ => flushed2_eq m c t) cover2

/-! ## The confidence and entropy columns (output windows 3 and 4) -/

/-- The confidence column `[8192, 1]`: at (r, 0) the confidence of query row `r`. -/
def confCol (P : Protos) (Q : Queries) : FVec Ideal ⟨2, ![8192, 1]⟩ .f32 := fun i => conf P (row Q ⟨(i 0).val, (i 0).isLt⟩)
/-- The entropy column `[8192, 1]`: at (r, 0) the entropy of query row `r`. -/
def entCol (P : Protos) (Q : Queries) : FVec Ideal ⟨2, ![8192, 1]⟩ .f32 := fun i => entropy P (row Q ⟨(i 0).val, (i 0).isLt⟩)
theorem confCol_ix2 (P : Protos) (Q : Queries) (r : Fin 8192) (u : Fin 1) : confCol P Q (ix2 r u) = conf P (row Q r) := rfl
theorem entCol_ix2 (P : Protos) (Q : Queries) (r : Fin 8192) (u : Fin 1) : entCol P Q (ix2 r u) = entropy P (row Q r) := rfl

/-- Entry `(p, u)` of a column block at point `t` is entry `(256·t + p, u)` of the column (windows 3 and 4 have one index map). -/
theorem col_emb3 (t : Fin cfg0.N) (p : Fin 256) (u : Fin 1) :
    ((cfg0.win 3).blk t).view.emb (ix2 p u) = ix2 (⟨256 * t.val + p.val, row_lt t p⟩ : Fin 8192) u := by
  obtain ⟨-, -, -, -, -, -, e6, e7, -⟩ := idx_facts t
  funext a; apply Fin.ext
  match a with
  | ⟨0, _⟩ => show win0_3.index t (0 : Fin 2) * 256 + 1 * p.val = 256 * t.val + p.val; omega
  | ⟨1, _⟩ => show win0_3.index t (1 : Fin 2) * 1 + 1 * u.val = u.val; omega
theorem col_emb4 (t : Fin cfg0.N) (p : Fin 256) (u : Fin 1) :
    ((cfg0.win 4).blk t).view.emb (ix2 p u) = ix2 (⟨256 * t.val + p.val, row_lt t p⟩ : Fin 8192) u := by
  obtain ⟨-, -, -, -, -, -, -, -, e8, e9⟩ := idx_facts t
  funext a; apply Fin.ext
  match a with
  | ⟨0, _⟩ => show win0_4.index t (0 : Fin 2) * 256 + 1 * p.val = 256 * t.val + p.val; omega
  | ⟨1, _⟩ => show win0_4.index t (1 : Fin 2) * 1 + 1 * u.val = u.val; omega

/-- What point `t` writes back to the confidence column is block `t` of `confCol`. -/
theorem flushed3_eq (c : Dev nD) (t : Fin cfg0.N) :
    (dats m 0 c).flushed 3 t = ((cfg0.win 3).blk t).view.read (Elt Ideal) (confCol (V m c main_arg0) (V m c main_arg1)) := by
  show (cfg0.win 3).cut (grid0.coords t) ((dats m 0 c).after 3 t) = _
  rw [after0_3]
  unfold out0_3
  rw [View.canon_unit_zero hz]
  simp only [View.ld_unit_zero (S := S256x1024) hz, View.ld_unit_zero (S := S1024x1024) hz]
  funext j
  obtain ⟨p, u, rfl⟩ : ∃ (p : Fin 256) (u : Fin 1), j = ix2 p u := ⟨j 0, j 1, eq_ix2 j⟩
  show k0_pay1 (k0_pay4 (iblk m c 0 t) (iblk m c 1 t)) (ix2 p u) = confCol (V m c main_arg0) (V m c main_arg1) (((cfg0.win 3).blk t).view.emb (ix2 p u))
  rw [col_emb3 t p u, confCol_ix2]
  refine (Cert.KernelSpec.pay_conf (iblk m c 0 t) (iblk m c 1 t) p u).trans ?_
  rw [protos_blk m c t]
  exact conf_congr _ (fun d => queries_blk m c t p (row_lt t p) d)

/-- What point `t` writes back to the entropy column is block `t` of `entCol`. -/
theorem flushed4_eq (c : Dev nD) (t : Fin cfg0.N) :
    (dats m 0 c).flushed 4 t = ((cfg0.win 4).blk t).view.read (Elt Ideal) (entCol (V m c main_arg0) (V m c main_arg1)) := by
  show (cfg0.win 4).cut (grid0.coords t) ((dats m 0 c).after 4 t) = _
  rw [after0_4]
  unfold out0_4
  rw [View.canon_unit_zero hz]
  simp only [View.ld_unit_zero (S := S256x1024) hz, View.ld_unit_zero (S := S1024x1024) hz]
  funext j
  obtain ⟨p, u, rfl⟩ : ∃ (p : Fin 256) (u : Fin 1), j = ix2 p u := ⟨j 0, j 1, eq_ix2 j⟩
  show k0_pay2 (k0_pay3 (iblk m c 0 t) (iblk m c 1 t)) (ix2 p u) = entCol (V m c main_arg0) (V m c main_arg1) (((cfg0.win 4).blk t).view.emb (ix2 p u))
  rw [col_emb4 t p u, entCol_ix2]
  refine (Cert.KernelSpec.pay_ent (iblk m c 0 t) (iblk m c 1 t) p u).trans ?_
  rw [protos_blk m c t]
  exact entropy_congr _ (fun d => queries_blk m c t p (row_lt t p) d)

theorem mem_blk3 (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0_1).slice (win0_3.rect t)).set ↔ _
  rw [View.set_slice_whole, Rect.mem_set_unit]
  exact Iff.rfl
theorem mem_blk4 (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v0_2).slice (win0_4.rect t)).set ↔ _
  rw [View.set_slice_whole, Rect.mem_set_unit]
  exact Iff.rfl

theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, e6, e7, -⟩ := idx_facts t
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, e8, e9⟩ := idx_facts t
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1 ≤ (i 1).val ∧ (i 1).val < win0_4.index t (1 : Fin 2) * 1 + 1; omega

/-- The two columns after the region. -/
theorem final3 (c : Dev nD) : (dats m 0 c).arrAt 3 cfg0.N = confCol (V m c main_arg0) (V m c main_arg1) :=
  (dats m 0 c).arrAt_eq_of_cover 3 (confCol (V m c main_arg0) (V m c main_arg1)) (fun t _ => flushed3_eq m c t) cover3
theorem final4 (c : Dev nD) : (dats m 0 c).arrAt 4 cfg0.N = entCol (V m c main_arg0) (V m c main_arg1) :=
  (dats m 0 c).arrAt_eq_of_cover 4 (entCol (V m c main_arg0) (V m c main_arg1)) (fun t _ => flushed4_eq m c t) cover4

/-! ## The two lines after the region -/

/-- Window 3's and window 4's arrays, read where the lines after the region find them. -/
theorem exit_v0_1 (c : Dev nD) :
    Pipeline.withArrays (cfgs 0).spec c (V0 m c) (fun w => (dats m 0 c).arrAt w (cfgs 0).N) (Proc.devRef .tc main_v0_1)
      = confCol (V m c main_arg0) (V m c main_arg1) :=
  (Pipeline.withArrays_arr spec0 launch0.win.arr_inj c _ _ 3).trans (final3 m c)
theorem exit_v0_2 (c : Dev nD) :
    Pipeline.withArrays (cfgs 0).spec c (V0 m c) (fun w => (dats m 0 c).arrAt w (cfgs 0).N) (Proc.devRef .tc main_v0_2)
      = entCol (V m c main_arg0) (V m c main_arg1) :=
  (Pipeline.withArrays_arr spec0 launch0.win.arr_inj c _ _ 4).trans (final4 m c)

/-- The confidence vector: the reshape of the confidence column reads, at `r`, the column's entry `(r, 0)`. -/
theorem tail_v1 (c : Dev nD) :
    Pipeline.afterTail₀ cfgs (dats m) 0 (V0 m) [hostOps1] c main_v1 = confArr (V m c main_arg0) (V m c main_arg1) := by
  unfold Pipeline.afterTail₀
  show StableHlo.after hostOps1 _ (Proc.devRef .tc main_v1) = _
  after_results
  funext i
  obtain ⟨r, rfl⟩ : ∃ r : Fin 8192, i = ix1 r := ⟨i 0, eq_ix1 i⟩
  show shapeCast S8192 (Pipeline.withArrays (cfgs 0).spec c (V0 m c) (fun w => (dats m 0 c).arrAt w (cfgs 0).N) (Proc.devRef .tc main_v0_1))
      shapeCasts_S8192x1_S8192 (ix1 r) = _
  rw [exit_v0_1 m c, confArr_ix1]
  exact (Cert.LibColumn.shapeCast_a1_a_apply _ shapeCasts_S8192x1_S8192 r).trans (confCol_ix2 _ _ r 0)

/-- The entropy vector likewise. -/
theorem tail_v2 (c : Dev nD) :
    Pipeline.afterTail₀ cfgs (dats m) 0 (V0 m) [hostOps1] c main_v2 = entArr (V m c main_arg0) (V m c main_arg1) := by
  unfold Pipeline.afterTail₀
  show StableHlo.after hostOps1 _ (Proc.devRef .tc main_v2) = _
  after_results
  funext i
  obtain ⟨r, rfl⟩ : ∃ r : Fin 8192, i = ix1 r := ⟨i 0, eq_ix1 i⟩
  show shapeCast S8192 (Pipeline.withArrays (cfgs 0).spec c (V0 m c) (fun w => (dats m 0 c).arrAt w (cfgs 0).N) (Proc.devRef .tc main_v0_2))
      shapeCasts_S8192x1_S8192 (ix1 r) = _
  rw [exit_v0_2 m c, entArr_ix1]
  exact (Cert.LibColumn.shapeCast_a1_a_apply _ shapeCasts_S8192x1_S8192 r).trans (entCol_ix2 _ _ r 0)

/-! ## The run, read -/

theorem v1_rest : main_v1 ∈ Pipeline.restRefs sig (cfgs 0).spec :=
  Pipeline.mem_restRefs_of main_v1 rfl (by decide)
theorem v2_rest : main_v2 ∈ Pipeline.restRefs sig (cfgs 0).spec :=
  Pipeline.mem_restRefs_of main_v2 rfl (by decide)

/-- Every weakly fair execution of the idealized kernel's program terminates with the posterior array at `postArr`, the
    confidence vector at `confArr`, the entropy vector at `entArr` of the two argument arrays, and the arguments unchanged. -/
theorem run : θ_run defs (onTc (τ := τ) (main (F := Ideal))) ⟨m, fun _ => 0, ρ⟩ fun r => ∀ c : Dev nD,
      r.2.mem ((c.tc : Thread nD τ).loc main_v0_0) = postArr (m ((c.tc : Thread nD τ).loc main_arg0)) (m ((c.tc : Thread nD τ).loc main_arg1))
      ∧ r.2.mem ((c.tc : Thread nD τ).loc main_v1) = confArr (m ((c.tc : Thread nD τ).loc main_arg0)) (m ((c.tc : Thread nD τ).loc main_arg1))
      ∧ r.2.mem ((c.tc : Thread nD τ).loc main_v2) = entArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  have h2 : r.2.mem ((c.tc : Thread nD τ).loc main_v0_0) = _ := ((h c).1 2).trans (final2 m c)
  have h3 : r.2.mem ((c.tc : Thread nD τ).loc main_v1) = _ := ((h c).2 main_v1 v1_rest).trans (tail_v1 m c)
  have h4 : r.2.mem ((c.tc : Thread nD τ).loc main_v2) = _ := ((h c).2 main_v2 v2_rest).trans (tail_v2 m c)
  rw [V_main_arg0, V_main_arg1] at h2 h3 h4
  exact ⟨h2, h3, h4,
    ((h c).1 1).trans (((dats m 0 c).arrAt_in 1 rfl _).trans ((A_eq m c 1).trans (V_main_arg0 m c))),
    ((h c).1 0).trans (((dats m 0 c).arrAt_in 0 rfl _).trans ((A_eq m c 0).trans (V_main_arg1 m c)))⟩

end Cert.KernelValue

end
-- ==== Proof.lean ====
/-
  The kernel computes, for 8192 query rows against 1024 class prototypes, the posterior
  `exp(-‖q - P_k + ε‖) / Σ_k' exp(-‖q - P_k' + ε‖)` of every class — the distance through the expanded square
  `(‖q‖² + ‖P_k‖²) - 2⟨q, P_k⟩ + 2ε(Σq - ΣP_k) + Dε²` clamped at zero —, each row's largest posterior and each row's
  entropy, 256 query rows per grid point with the inner products on the matrix unit in bf16; the reference computes the
  same three arrays from whole-array operations. Over the extended reals a change of float format is the identity and a
  sum does not depend on its order, so both programs compute, row by row, ONE function of the two argument arrays
  (Proof/Spec.lean): the kernel's three results are read off its frame run block by block (Proof/KernelSpec.lean for
  the body's arithmetic at an index, Proof/KernelValue.lean for the blocks, the cover and the two reshapes after the
  region), the reference's off its run operation by operation (Proof/RefSpec.lean). No law used needs finiteness: the
  precondition is not opened. The idealization rewrote nothing, so `preserves` asks nothing.
-/
import proofs.«104963_j38130719653972_1_alg».proof.Defs
import proofs.«104963_j38130719653972_1_alg».proof.Proof.Gen.Kernel
import proofs.«104963_j38130719653972_1_alg».proof.Proof.Gen.Kernel.Frame
import proofs.«104963_j38130719653972_1_alg».proof.Proof.Gen.KernelIdeal
import proofs.«104963_j38130719653972_1_alg».proof.Proof.Gen.KernelIdeal.Frame
import proofs.«104963_j38130719653972_1_alg».proof.Proof.Gen.ReferenceIdeal
import proofs.«104963_j38130719653972_1_alg».proof.Proof.Gen.ReferenceIdeal.Run
import proofs.«104963_j38130719653972_1_alg».proof.Proof.Gen.ReferenceIdeal.Read
import proofs.«104963_j38130719653972_1_alg».proof.Proof.Gen.Pre_finite_inputs
import proofs.«104963_j38130719653972_1_alg».proof.Proof.Spec
import proofs.«104963_j38130719653972_1_alg».proof.Proof.RefSpec
import proofs.«104963_j38130719653972_1_alg».proof.Proof.KernelValue
import Idealize.ShloMosaic.Adequacy
import Idealize.ShloMosaic.Init

noncomputable section

namespace Cert.Proof

open Idealize.ShloMosaic Idealize.SL.Sem Cert.Posterior

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- The idealization rewrote no operation. -/
theorem preserves : Cert.preserves_Kernel_KernelIdeal := trivial

/-- From memories that agree on the prototypes and the queries both programs end with the posterior array, the
    confidence vector and the entropy vector of those two arrays. -/
theorem algebraic : Cert.algebraic_KernelIdeal_ReferenceIdeal := by
  intro m ρ m' ρ' _ hagree
  refine ⟨fun c => postArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun c => confArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun c => entArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.KernelValue.run m ρ, ?_⟩
  refine (θ_run Cert.ReferenceIdeal.defs _ _).mono (fun _ h c => ?_) (Cert.ReferenceIdeal.Value.run (F := Ideal) m' ρ')
  obtain ⟨h0, h1, h2, h3, h4⟩ := h c
  refine ⟨?_, ?_, ?_, h3, h4⟩
  · refine h0.trans ((Cert.ReferenceIdeal.Read.val_main_v34_eq (F := Ideal) _ _).trans ((Cert.RefSpec.ref_post _ _).trans ?_))
    rw [(hagree c).1, (hagree c).2]
  · refine h1.trans ((Cert.ReferenceIdeal.Read.val_main_v35_eq (F := Ideal) _ _).trans ((Cert.RefSpec.ref_conf _ _).trans ?_))
    rw [(hagree c).1, (hagree c).2]
  · refine h2.trans ((Cert.ReferenceIdeal.Read.val_main_v39_eq (F := Ideal) m' c).trans ((Cert.RefSpec.ref_ent _ _).trans ?_))
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
